-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S2048 : Shape := ⟨1, ![2048]⟩
abbrev S2048x8192 : Shape := ⟨2, ![2048, 8192]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part2 {F : FTy → Type} [FloatOps F] (main_arg8 : FVec F S2048x2048 .f32) (main_arg9 : FVec F S2048 .f32) (main_v33 : IVec S_ 1) : IVec S_ 1 :=
  let main_v34 : FVec F S2048x2048 .f32 := Host.absf main_arg8
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg9
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg5 : FVec F S8192 .f32) (main_arg6 : FVec F S8192x2048 .f32) (main_arg7 : FVec F S2048 .f32) (main_arg8 : FVec F S2048x2048 .f32) (main_arg9 : FVec F S2048 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S8192 .f32 := Host.absf main_arg5
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x2048 .f32 := Host.absf main_arg6
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg8 main_arg9 main_v33

def fn {F : FTy → Type} [FloatOps F] (main_arg0 : FVec F S8192x2048 .f32) (main_arg1 : IVec S8192 32) (main_arg2 : FVec F S2048 .f32) (main_arg3 : FVec F S2048 .f32) (main_arg4 : FVec F S2048x8192 .f32) (main_arg5 : FVec F S8192 .f32) (main_arg6 : FVec F S8192x2048 .f32) (main_arg7 : FVec F S2048 .f32) (main_arg8 : FVec F S2048x2048 .f32) (main_arg9 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x8192 .f32 := Host.absf main_arg4
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg5 main_arg6 main_arg7 main_arg8 main_arg9 main_v13 main_v16
-- ==== Kernel.lean ====
abbrev S8192x2048 : Shape := ⟨2, ![8192, 2048]⟩
abbrev S8192 : Shape := ⟨1, ![8192]⟩
abbrev S2048 : Shape := ⟨1, ![2048]⟩
abbrev S2048x8192 : Shape := ⟨2, ![2048, 8192]⟩
abbrev S2048x2048 : Shape := ⟨2, ![2048, 2048]⟩
abbrev S1x2048 : Shape := ⟨2, ![1, 2048]⟩
abbrev S8191x2048 : Shape := ⟨2, ![8191, 2048]⟩
abbrev S_ : Shape := ⟨0, ![]⟩
abbrev S8192x1 : Shape := ⟨2, ![8192, 1]⟩
abbrev S1x8192 : Shape := ⟨2, ![1, 8192]⟩
abbrev S512x2048 : Shape := ⟨2, ![512, 2048]⟩
abbrev S2048x256 : Shape := ⟨2, ![2048, 256]⟩
abbrev S1x256 : Shape := ⟨2, ![1, 256]⟩
abbrev S256x2048 : Shape := ⟨2, ![256, 2048]⟩
abbrev S512x256 : Shape := ⟨2, ![512, 256]⟩

abbrev nBuf : Space → Nat
  | .hbm => 46
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S2048, .f32⟩
  | .hbm, ⟨3, _⟩ => ⟨S2048, .f32⟩
  | .hbm, ⟨4, _⟩ => ⟨S2048x8192, .f32⟩
  | .hbm, ⟨5, _⟩ => ⟨S8192, .f32⟩
  | .hbm, ⟨6, _⟩ => ⟨S8192x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S1x2048, .f32⟩
  | .hbm, ⟨11, _⟩ => ⟨S8191x2048, .f32⟩
  | .hbm, ⟨12, _⟩ => ⟨S8192x2048, .f32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S8192x1, .i1⟩
  | .hbm, ⟨17, _⟩ => ⟨S_, .f32⟩
  | .hbm, ⟨18, _⟩ => ⟨S_, .f32⟩
  | .hbm, ⟨19, _⟩ => ⟨S8192x2048, .i1⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | .hbm, ⟨38, _⟩ => ⟨S8192x2048, .bf16⟩
  | .hbm, ⟨39, _⟩ => ⟨S2048x8192, .bf16⟩
  | .hbm, ⟨40, _⟩ => ⟨S8192x2048, .bf16⟩
  | .hbm, ⟨41, _⟩ => ⟨S2048x2048, .bf16⟩
  | .hbm, ⟨42, _⟩ => ⟨S1x8192, .f32⟩
  | .hbm, ⟨43, _⟩ => ⟨S1x2048, .f32⟩
  | .hbm, ⟨44, _⟩ => ⟨S1x2048, .f32⟩
  | .hbm, ⟨45, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x256, .bf16⟩
  | .local _ .vmem, ⟨5, _⟩ => ⟨S2048x256, .bf16⟩
  | .local _ .vmem, ⟨6, _⟩ => ⟨S1x256, .f32⟩
  | .local _ .vmem, ⟨7, _⟩ => ⟨S1x256, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S2048x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v24 : BitVec 1 := Scalar.cmpi .eq arg1 c31_i32
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  slices_S8192x2048_S1x2048_8191_0 : S8192x2048.Slices ![8191, 0] S1x2048
  slices_S8192x2048_S8191x2048_0_0 : S8192x2048.Slices ![0, 0] S8191x2048
  concatenates_S1x2048_S8191x2048_S8192x2048_d0 : Shape.Concatenates [S1x2048, S8191x2048] S8192x2048 0
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bitsLt_bf16_f32 : FTy.bits .bf16 < FTy.bits .f32
  shapeCasts_S8192_S1x8192 : S8192.ShapeCasts S1x8192
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  dot_S512x2048_S2048x2048_S512x2048_1_0_0_1_n_n_wf : DotDims.WF S512x2048 S2048x2048 S512x2048 [1] [0] [0] [1] [] []
  dot_S512x2048_S2048x256_S512x256_1_0_0_1_n_n_wf : DotDims.WF S512x2048 S2048x256 S512x256 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x8192.size a
  hwx0_2 : ∀ i : grid0.Coords, EltTy.bits .bf16 = 32 ∨ (Rect.block (s := S2048x8192) S2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .f32 = 32 ∨ (Rect.block (s := S1x8192) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S8192x2048.size a
  hwx0_4 : ∀ i : grid0.Coords, EltTy.bits .bf16 = 32 ∨ (Rect.block (s := S8192x2048) S256x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S2048x2048.size a
  hwx0_6 : ∀ i : grid0.Coords, EltTy.bits .bf16 = 32 ∨ (Rect.block (s := S2048x2048) S2048x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x2048.size a ≤ S8192x2048.size a
  hwx0_8 : ∀ i : grid0.Coords, EltTy.bits .f32 = 32 ∨ (Rect.block (s := S8192x2048) S512x2048.size (cc0_transform_8 i) (hinb0_8 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v18) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2048x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S512x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8192 : Shape := ⟨1, ![8192]⟩
abbrev S2048 : Shape := ⟨1, ![2048]⟩
abbrev S2048x8192 : Shape := ⟨2, ![2048, 8192]⟩
abbrev S2048x2048 : Shape := ⟨2, ![2048, 2048]⟩
abbrev S1x2048 : Shape := ⟨2, ![1, 2048]⟩
abbrev S8191x2048 : Shape := ⟨2, ![8191, 2048]⟩
abbrev S_ : Shape := ⟨0, ![]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S2048, .f32⟩
  | .hbm, ⟨3, _⟩ => ⟨S2048, .f32⟩
  | .hbm, ⟨4, _⟩ => ⟨S2048x8192, .f32⟩
  | .hbm, ⟨5, _⟩ => ⟨S8192, .f32⟩
  | .hbm, ⟨6, _⟩ => ⟨S8192x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S1x2048, .f32⟩
  | .hbm, ⟨11, _⟩ => ⟨S8191x2048, .f32⟩
  | .hbm, ⟨12, _⟩ => ⟨S8192x2048, .f32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S8192x1, .i1⟩
  | .hbm, ⟨17, _⟩ => ⟨S_, .f32⟩
  | .hbm, ⟨18, _⟩ => ⟨S_, .f32⟩
  | .hbm, ⟨19, _⟩ => ⟨S8192x2048, .i1⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x8192, .f32⟩
  | .hbm, ⟨38, _⟩ => ⟨S1x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call2_cst : Ref sig .tc := ⟨.hbm, 41, rfl⟩
abbrev main_call2_v0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_2 : Ref sig .tc := ⟨.hbm, 55, rfl⟩
abbrev main_v34 : Ref sig .tc := ⟨.hbm, 56, rfl⟩
abbrev main_v35 : Ref sig .tc := ⟨.hbm, 57, rfl⟩
abbrev main_cst_3 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]

class Facts₀ : Prop where
  slices_S8192x2048_S1x2048_8191_0 : S8192x2048.Slices ![8191, 0] S1x2048
  slices_S8192x2048_S8191x2048_0_0 : S8192x2048.Slices ![0, 0] S8191x2048
  concatenates_S1x2048_S8191x2048_S8192x2048_d0 : Shape.Concatenates [S1x2048, S8191x2048] S8192x2048 0
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x2048_S2048x8192_S8192x8192_1_0_0_1_n_n_wf : DotDims.WF S8192x2048 S2048x8192 S8192x8192 [1] [0] [0] [1] [] []
  dot_S8192x8192_S8192x2048_S8192x2048_1_0_0_1_n_n_wf : DotDims.WF S8192x8192 S8192x2048 S8192x2048 [1] [0] [0] [1] [] []
  dot_S8192x2048_S2048x2048_S8192x2048_1_0_0_1_n_n_wf : DotDims.WF S8192x2048 S2048x2048 S8192x2048 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf
def dot_S8192x8192_S8192x2048_S8192x2048_1_0_0_1_n_n : DotDims S8192x8192 S8192x2048 S8192x2048 where
  lhsContracting := [1]
  rhsContracting := [0]
  lhsNonContracting := [0]
  rhsNonContracting := [1]
  lhsBatch := []
  rhsBatch := []
  wf := dot_S8192x8192_S8192x2048_S8192x2048_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Pieces.lean ====
/-
  What one run of the kernel body leaves in the two carried scratch arrays and in the output block, as pure functions of
  the operand blocks it loaded.

  The body keeps a running total (first scratch) and the gate's pre-activation (second scratch).  At a row block's first
  step it stores zeros into the total, stores the gate's pre-activation, and adds the first block's product to the zeros; at
  every other step it adds the block's product to what the total held; at the last step it also stores the output block,
  computed from the total it has just stored, the output bias and the gate's pre-activation kept since the first step.
  Each store covers its whole array, so what is read back is the stored value.
-/
import proofs.«170489_j8383776161803_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- At a first step the running total ends at one step from the zero block: the body stores zeros, reads them back and adds
    the block's product. -/
theorem sout_A_0 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S1x256 .f32) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (hc0 : cond0_0 i) (hc1 : ¬cond0_1 i) (x0 : Vec F S512x2048 .bf16) (x1 : Vec F S512x2048 .bf16) (x2 : Vec F S2048x256 .bf16) (x3 : Vec F S1x256 .f32) (x4 : Vec F S256x2048 .bf16) (x5 : Vec F S1x2048 .f32) (x6 : Vec F S2048x2048 .bf16) (x7 : Vec F S1x2048 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay3 x0 x2 x3 k0_pay1 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x2048) hz, View.ld_unit_zero (S := S2048x256) hz, View.ld_unit_zero (S := S1x256) hz, View.ld_unit_zero (S := S256x2048) hz, View.ld_unit_zero (S := S1x2048) hz, View.ld_unit_zero (S := S2048x2048) hz]

/-- At a first step the second scratch ends at the gate's pre-activation of the row block. -/
theorem sout_A_1 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S1x256 .f32) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (hc0 : cond0_0 i) (hc1 : ¬cond0_1 i) (x0 : Vec F S512x2048 .bf16) (x1 : Vec F S512x2048 .bf16) (x2 : Vec F S2048x256 .bf16) (x3 : Vec F S1x256 .f32) (x4 : Vec F S256x2048 .bf16) (x5 : Vec F S1x2048 .f32) (x6 : Vec F S2048x2048 .bf16) (x7 : Vec F S1x2048 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay2 x1 x6 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x2048) hz, View.ld_unit_zero (S := S2048x256) hz, View.ld_unit_zero (S := S1x256) hz, View.ld_unit_zero (S := S256x2048) hz, View.ld_unit_zero (S := S1x2048) hz, View.ld_unit_zero (S := S2048x2048) hz]

/-- At a middle step the running total ends at one step from what it held. -/
theorem sout_B_0 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S1x256 .f32) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (hc0 : ¬cond0_0 i) (hc1 : ¬cond0_1 i) (x0 : Vec F S512x2048 .bf16) (x1 : Vec F S512x2048 .bf16) (x2 : Vec F S2048x256 .bf16) (x3 : Vec F S1x256 .f32) (x4 : Vec F S256x2048 .bf16) (x5 : Vec F S1x2048 .f32) (x6 : Vec F S2048x2048 .bf16) (x7 : Vec F S1x2048 .f32) (xs0 xs1 : Vec F S512x2048 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay3 x0 x2 x3 xs0 x4 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_B
  dsimp only
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x2048) hz, View.ld_unit_zero (S := S2048x256) hz, View.ld_unit_zero (S := S1x256) hz, View.ld_unit_zero (S := S256x2048) hz, View.ld_unit_zero (S := S1x2048) hz, View.ld_unit_zero (S := S2048x2048) hz]

/-- At a last step the running total ends at one step from what it held, -/
theorem sout_C_0 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S1x256 .f32) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (hc0 : ¬cond0_0 i) (hc1 : cond0_1 i) (x0 : Vec F S512x2048 .bf16) (x1 : Vec F S512x2048 .bf16) (x2 : Vec F S2048x256 .bf16) (x3 : Vec F S1x256 .f32) (x4 : Vec F S256x2048 .bf16) (x5 : Vec F S1x2048 .f32) (x6 : Vec F S2048x2048 .bf16) (x7 : Vec F S1x2048 .f32) (xs0 xs1 : Vec F S512x2048 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay3 x0 x2 x3 xs0 x4 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x2048) hz, View.ld_unit_zero (S := S2048x256) hz, View.ld_unit_zero (S := S1x256) hz, View.ld_unit_zero (S := S256x2048) hz, View.ld_unit_zero (S := S1x2048) hz, View.ld_unit_zero (S := S2048x2048) hz]

/-- and the output block at the gated finished total, read back from the scratch just stored. -/
theorem out_C_8 (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x256 .bf16) (harg4 : arg4.IsWhole) (arg5 : Memref sig .tc .vmem S1x256 .f32) (harg5 : arg5.IsWhole) (arg6 : Memref sig .tc .vmem S256x2048 .bf16) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (hc0 : ¬cond0_0 i) (hc1 : cond0_1 i) (x0 : Vec F S512x2048 .bf16) (x1 : Vec F S512x2048 .bf16) (x2 : Vec F S2048x256 .bf16) (x3 : Vec F S1x256 .f32) (x4 : Vec F S256x2048 .bf16) (x5 : Vec F S1x2048 .f32) (x6 : Vec F S2048x2048 .bf16) (x7 : Vec F S1x2048 .f32) (xs0 xs1 : Vec F S512x2048 .f32) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay4 (k0_pay3 x0 x2 x3 xs0 x4) x5 xs1 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero hz, View.readCov_unit_zero (S := S512x2048) _ hz]
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S512x2048) hz, View.ld_unit_zero (S := S2048x256) hz, View.ld_unit_zero (S := S1x256) hz, View.ld_unit_zero (S := S256x2048) hz, View.ld_unit_zero (S := S1x2048) hz, View.ld_unit_zero (S := S2048x2048) hz]

end Cert.KernelIdeal.Pieces

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibBlockSum.lean ====
/-
  Sums over a long axis taken block by block.

  A kernel that walks an axis of extent `N = T * R` in `T` blocks of `R` rows and keeps a running total adds up, in the
  end, the same terms as one sum over the whole axis: in a commutative monoid (the extended reals under `+` are one, infinities
  included) only the grouping differs.  Stated over an arbitrary commutative monoid, for literal or symbolic extents.
-/
import Idealize.ShloMosaic.Lib.ValueIdx

namespace Cert.LibBlockSum

open Finset

variable {M : Type*} [AddCommMonoid M]

/-- Row `r` of block `t`, as a row of the whole axis: `t * R + r`. -/
def row {T R : ℕ} (t : Fin T) (r : Fin R) : Fin (T * R) :=
  ⟨t.val * R + r.val, by
    have ht := t.isLt
    have hr := r.isLt
    calc t.val * R + r.val < t.val * R + R := by omega
      _ = (t.val + 1) * R := by ring
      _ ≤ T * R := Nat.mul_le_mul_right R ht⟩

@[simp] theorem row_val {T R : ℕ} (t : Fin T) (r : Fin R) : (row t r).val = t.val * R + r.val := rfl

/-- A sum over an axis of extent `T * R` is the sum over the `T` blocks of the sums over each block's `R` rows. -/
theorem sum_blocks (T R : ℕ) (f : Fin (T * R) → M) :
    ∑ i, f i = ∑ t : Fin T, ∑ r : Fin R, f (row t r) := by
  rw [← Equiv.sum_comp finProdFinEquiv f, Fintype.sum_prod_type]
  refine Finset.sum_congr rfl fun t _ => Finset.sum_congr rfl fun r _ => congrArg f ?_
  apply Fin.ext
  simp only [finProdFinEquiv_apply_val, row_val]
  ring

/-- The same over an axis whose extent `N` is given as a number with `T * R = N` (for instance `20 * 5000 = 100000`):
    the row `t * R + r` is named by its value. -/
theorem sum_blocks_of_eq {N : ℕ} (T R : ℕ) (h : T * R = N) (f : Fin N → M) :
    ∑ i, f i = ∑ t : Fin T, ∑ r : Fin R,
      f ⟨t.val * R + r.val, h ▸ (row t r).isLt⟩ := by
  subst h
  exact sum_blocks T R f

/-- A running total: start from `0`, add `g 0`, then `g 1`, … — what an accumulator holds after `k` steps. -/
def running (g : ℕ → M) : ℕ → M
  | 0 => 0
  | k + 1 => running g k + g k

@[simp] theorem running_zero (g : ℕ → M) : running g 0 = 0 := rfl
@[simp] theorem running_succ (g : ℕ → M) (k : ℕ) : running g (k + 1) = running g k + g k := rfl

/-- After `k` steps the accumulator holds the sum of the first `k` contributions. -/
theorem running_eq_sum_range (g : ℕ → M) (k : ℕ) : running g k = ∑ t ∈ Finset.range k, g t := by
  induction k with
  | zero => simp
  | succ k ih => rw [running_succ, ih, Finset.sum_range_succ]

/-- After all `T` steps: the sum over the `T` blocks. -/
theorem running_eq_sum_fin (g : ℕ → M) (T : ℕ) : running g T = ∑ t : Fin T, g t.val := by
  rw [running_eq_sum_range, Finset.sum_range]

/-- An accumulator fed block sums of `f` ends at the sum of `f` over the whole axis. -/
theorem running_blocks (T R : ℕ) (f : Fin (T * R) → M) (g : ℕ → M)
    (hg : ∀ t : Fin T, g t.val = ∑ r : Fin R, f (row t r)) :
    running g T = ∑ i, f i := by
  rw [running_eq_sum_fin, sum_blocks]
  exact Finset.sum_congr rfl fun t _ => hg t

end Cert.LibBlockSum
-- ==== Proof.LibBlockShare.lean ====
/-
  The sum over a matrix product's contracted axis, taken in blocks.

  For H : [T, I] and W : [I, G] the product at (r, g) is the sum over i of H(r, i) * W(i, g).  Cut the contracted axis into
  `nb` blocks of `R` terms: block `b`'s share is the sum of the `R` terms from `b * R`, and an accumulator that starts at zero and
  adds the shares in order holds, after all `nb` blocks, the product.  Over the extended reals only the grouping of a finite
  sum changes, so nothing is assumed of the entries (infinities included).  The terms are indexed by a natural number (zero
  past the axis' end) so that a share can be named before its block is known to lie inside the axis.
-/
import proofs.«170489_j8383776161803_1_alg».proof.Proof.LibMatmul
import proofs.«170489_j8383776161803_1_alg».proof.Proof.LibBlockSum

noncomputable section

open scoped BigOperators

namespace Cert.LibBlockShare

open Idealize.ShloMosaic Idealize.ShloMosaic.ValueIdx Cert.LibMatmul Cert.LibBlockSum

/-- Term `i` of the sum over the contracted axis at output position (r, g); 0 past the axis' end. -/
def term {T I G : Nat} (Hd : (⟨2, ![T, I]⟩ : Shape).Idx → EReal) (Wv : (⟨2, ![I, G]⟩ : Shape).Idx → EReal)
    (r : Fin T) (g : Fin G) (i : ℕ) : EReal :=
  if hi : i < I then Hd (ix2 r ⟨i, hi⟩) * Wv (ix2 ⟨i, hi⟩ g) else 0

/-- Block `b`'s share (R terms from `b * R`) of that sum. -/
def blockTerm {T I G : Nat} (Hd : (⟨2, ![T, I]⟩ : Shape).Idx → EReal) (Wv : (⟨2, ![I, G]⟩ : Shape).Idx → EReal)
    (R : ℕ) (r : Fin T) (g : Fin G) (b : ℕ) : EReal :=
  ∑ q : Fin R, term Hd Wv r g (b * R + q.val)

/-- A term of a block that lies inside the axis is inside the axis. -/
theorem lt_of_block {b R I : ℕ} (hbI : (b + 1) * R ≤ I) (q : Fin R) : b * R + q.val < I := by
  have hq := q.isLt
  have : (b + 1) * R = b * R + R := by ring
  omega

/-- The running total after all `nb` blocks of `R` terms is the matrix product at (r, g). -/
theorem running_blockTerm {T I G : Nat} (Hd : (⟨2, ![T, I]⟩ : Shape).Idx → EReal) (Wv : (⟨2, ![I, G]⟩ : Shape).Idx → EReal)
    (nb R : ℕ) (hI : nb * R = I) (r : Fin T) (g : Fin G) :
    running (blockTerm Hd Wv R r g) nb = MM Hd Wv (ix2 r g) := by
  rw [running_eq_sum_fin, MM_apply,
    sum_blocks_of_eq nb R hI (fun i : Fin I => Hd (ix2 r i) * Wv (ix2 i g))]
  refine Finset.sum_congr rfl fun t _ => Finset.sum_congr rfl fun q _ => ?_
  have hlt : t.val * R + q.val < I := hI ▸ (row t q).isLt
  unfold term
  rw [dif_pos hlt]

end Cert.LibBlockShare

end
-- ==== Proof.Spec.lean ====
/-
  The mathematics of the gated feed-forward layer, with no program in sight.

  Inputs, as arrays of extended reals: the two time-mixed activations XK, XR : [T, H], the weights Wk : [H, I],
  Wv : [I, G], Wr : [H, G] and the biases bk : [I], bv : [G], br : [G].  The layer is

      out(t, g) = logistic( (XR · Wr)(t, g) + br(g) ) * ( ∑ i, hidden(t, i) * Wv(i, g) + bv(g) ),
      hidden(t, i) = max( (XK · Wk)(t, i) + bk(i), 0 )².

  A tiled evaluation walks the hidden axis in blocks of R columns and keeps a running total per row block: the block
  functions below say what one step computes from its operand blocks, `step_eq` says that one step's contribution is the
  block's share of the sum over the hidden axis (LibBlockShare.lean), and the running total of the shares after the last
  block is the whole sum: over the extended reals only the grouping of a finite sum changes, so no finiteness is needed.
-/
import proofs.«170489_j8383776161803_1_alg».proof.Proof.LibMatmul
import proofs.«170489_j8383776161803_1_alg».proof.Proof.LibBlockSum
import proofs.«170489_j8383776161803_1_alg».proof.Proof.LibBlockShare
import Idealize.ShloMosaic.PureOps.Ideal

noncomputable section

open scoped BigOperators

namespace Cert.Spec

open Idealize.ShloMosaic Idealize.ShloMosaic.ValueIdx Cert.LibMatmul Cert.LibBlockSum

/-- A matrix of extended reals. -/
abbrev Mat (a b : Nat) : Type := (⟨2, ![a, b]⟩ : Shape).Idx → EReal
/-- A one-axis array of extended reals. -/
abbrev Arr (a : Nat) : Type := (⟨1, ![a]⟩ : Shape).Idx → EReal

/-- The f32 word of +0.0 read at the ideal values (the real number 0). -/
abbrev z0 : EReal := Ideal.ofBits .f32 0x00000000#32

theorem z0_eq : z0 = 0 := Ideal.ofBits_zero_f32

/-- The squared rectifier: max(z, 0)². -/
def sqrelu (z : EReal) : EReal := max z z0 * max z z0

/-! ## The layer on whole arrays -/

/-- The hidden activations: the squared rectifier of XK · Wk + bk. -/
def hidden {T H I : Nat} (XK : Mat T H) (Wk : Mat H I) (bk : Arr I) : Mat T I :=
  fun i => sqrelu (MM XK Wk i + bk (ix1 (i 1)))

/-- The gate's pre-activation: XR · Wr + br. -/
def gate {T H G : Nat} (XR : Mat T H) (Wr : Mat H G) (br : Arr G) : Mat T G :=
  fun j => MM XR Wr j + br (ix1 (j 1))

/-- The layer's output. -/
def out {T H I G : Nat} (XK XR : Mat T H) (Wk : Mat H I) (bk : Arr I) (Wv : Mat I G) (bv : Arr G)
    (Wr : Mat H G) (br : Arr G) : Mat T G :=
  fun j => Ideal.logistic (gate XR Wr br j) * (MM (hidden XK Wk bk) Wv j + bv (ix1 (j 1)))

/-! ## One step of the tiled evaluation, on operand blocks (biases held as one-row matrices) -/

/-- The hidden activations of one block of columns, from a row block of XK, a column block of Wk and bk's block. -/
def hiddenBlk {a H b : Nat} (x0 : Mat a H) (x2 : Mat H b) (x3 : Mat 1 b) : Mat a b :=
  fun i => sqrelu (MM x0 x2 i + x3 (ix2 (0 : Fin 1) (i 1)))

/-- The running total after a step: what it held plus the block's hidden activations times Wv's row block. -/
def stepAcc {a H b G : Nat} (x0 : Mat a H) (x2 : Mat H b) (x3 : Mat 1 b) (acc : Mat a G) (x4 : Mat b G) : Mat a G :=
  fun j => acc j + MM (hiddenBlk x0 x2 x3) x4 j

/-- The gate's pre-activation of a row block. -/
def gateBlk {a H G : Nat} (x1 : Mat a H) (x6 : Mat H G) (x7 : Mat 1 G) : Mat a G :=
  fun j => MM x1 x6 j + x7 (ix2 (0 : Fin 1) (j 1))

/-- A row block of the output from the finished total, bv and the gate's pre-activation. -/
def outBlk {a G : Nat} (acc : Mat a G) (x5 : Mat 1 G) (rr : Mat a G) : Mat a G :=
  fun j => Ideal.logistic (rr j) * (acc j + x5 (ix2 (0 : Fin 1) (j 1)))

/-! ## A step's contribution is a block's share of the sum over the hidden axis -/

export Cert.LibBlockShare (term blockTerm lt_of_block running_blockTerm)

/-- One step's product of the block's hidden activations with Wv's row block, at (p, g), is block `b`'s share of the sum
    at row `r0 + p`: the operand blocks read XK's rows from `r0`, Wk's and bk's columns and Wv's rows from `b * R`. -/
theorem step_eq {T H I G a R : Nat} (XK : Mat T H) (Wk : Mat H I) (bk : Arr I) (Wv : Mat I G)
    (x0 : Mat a H) (x2 : Mat H R) (x3 : Mat 1 R) (x4 : Mat R G) (r0 b : ℕ)
    (h0 : ∀ (p : Fin a) (k : Fin H) (hr : r0 + p.val < T), x0 (ix2 p k) = XK (ix2 ⟨r0 + p.val, hr⟩ k))
    (h2 : ∀ (k : Fin H) (q : Fin R) (hc : b * R + q.val < I), x2 (ix2 k q) = Wk (ix2 k ⟨b * R + q.val, hc⟩))
    (h3 : ∀ (q : Fin R) (hc : b * R + q.val < I), x3 (ix2 (0 : Fin 1) q) = bk (ix1 ⟨b * R + q.val, hc⟩))
    (h4 : ∀ (q : Fin R) (g : Fin G) (hc : b * R + q.val < I), x4 (ix2 q g) = Wv (ix2 ⟨b * R + q.val, hc⟩ g))
    (hbI : (b + 1) * R ≤ I) (p : Fin a) (g : Fin G) (hr : r0 + p.val < T) :
    MM (hiddenBlk x0 x2 x3) x4 (ix2 p g) = blockTerm (hidden XK Wk bk) Wv R ⟨r0 + p.val, hr⟩ g b := by
  rw [MM_apply]
  unfold blockTerm
  refine Finset.sum_congr rfl fun q _ => ?_
  have hc : b * R + q.val < I := lt_of_block hbI q
  unfold term
  rw [dif_pos hc, h4 q g hc]
  congr 1
  show sqrelu (MM x0 x2 (ix2 p q) + x3 (ix2 (0 : Fin 1) q)) = sqrelu (MM XK Wk (ix2 ⟨r0 + p.val, hr⟩ ⟨b * R + q.val, hc⟩) + bk (ix1 ⟨b * R + q.val, hc⟩))
  rw [h3 q hc, MM_apply, MM_apply]
  congr 2
  exact Finset.sum_congr rfl fun k _ => by rw [h0 p k hr, h2 k q hc]

/-- The gate's pre-activation of a row block is the whole array's, at row `r0 + p`. -/
theorem gateBlk_eq {T H G a : Nat} (XR : Mat T H) (Wr : Mat H G) (br : Arr G)
    (x1 : Mat a H) (x6 : Mat H G) (x7 : Mat 1 G) (r0 : ℕ)
    (h1 : ∀ (p : Fin a) (k : Fin H) (hr : r0 + p.val < T), x1 (ix2 p k) = XR (ix2 ⟨r0 + p.val, hr⟩ k))
    (h6 : ∀ (k : Fin H) (g : Fin G), x6 (ix2 k g) = Wr (ix2 k g))
    (h7 : ∀ g : Fin G, x7 (ix2 (0 : Fin 1) g) = br (ix1 g))
    (p : Fin a) (g : Fin G) (hr : r0 + p.val < T) :
    gateBlk x1 x6 x7 (ix2 p g) = gate XR Wr br (ix2 ⟨r0 + p.val, hr⟩ g) := by
  show MM x1 x6 (ix2 p g) + x7 (ix2 (0 : Fin 1) g) = MM XR Wr (ix2 ⟨r0 + p.val, hr⟩ g) + br (ix1 g)
  rw [h7 g, MM_apply, MM_apply]
  congr 1
  exact Finset.sum_congr rfl fun k _ => by rw [h1 p k hr, h6 k g]

/-- The running total started from the zero word: after `n + 1` steps it is the running total of the shares. -/
theorem chain_zero (f : ℕ → EReal) : z0 + f 0 = running f 1 := by
  rw [z0_eq]; rfl

end Cert.Spec

end
-- ==== Proof.Payloads.lean ====
/-
  The body's four stored values, read at the ideal values, are the block functions of Spec.lean.

  A matrix product into the zero accumulator is the plain sum over the contracted axis; a shape cast to the same shape
  is the identity; a change of float format is the identity; a one-row bias broadcast down the rows reads the bias at the
  column; the rest is pointwise.
-/
import proofs.«170489_j8383776161803_1_alg».proof.Proof.Gen.KernelIdeal.Skeleton
import proofs.«170489_j8383776161803_1_alg».proof.Proof.Spec
import Idealize.ShloMosaic.Lib.Pipeline.Value
import Idealize.ShloMosaic.Lib.ValueLayout

noncomputable section

open Idealize.ShloMosaic Idealize.ShloMosaic.ValueIdx

namespace Cert.KernelIdeal.Payloads

open Cert.KernelIdeal Cert.KernelIdeal.Gen Cert.Spec Cert.LibMatmul

/-- A one-row matrix broadcast down `a` rows, as a function of the index. -/
theorem bcast_row {a b : ℕ} (v : (⟨2, ![1, b]⟩ : Shape).Idx → EReal) (h : (⟨2, ![1, b]⟩ : Shape).Broadcasts ⟨2, ![a, b]⟩) :
    broadcastTo ⟨2, ![a, b]⟩ v h = fun i => v (ix2 (0 : Fin 1) (i 1)) := by
  funext i
  exact (congrArg (broadcastTo ⟨2, ![a, b]⟩ v h) (eq_ix2 i)).trans (broadcastTo_1b_ab_apply v h (i 0) (i 1))

/-- The zero block. -/
theorem pay1_eq : (k0_pay1 (F := Ideal)) = fun _ => z0 := by
  unfold k0_pay1
  simp only [shapeCast_self]
  rfl

/-- The gate's pre-activation of a row block. -/
theorem pay2_eq (v31 : Vec Ideal S512x2048 .bf16) (v33 : Vec Ideal S2048x2048 .bf16) (v36 : Vec Ideal S1x2048 .f32) :
    k0_pay2 v31 v33 v36 = gateBlk v31 v33 v36 := by
  unfold k0_pay2
  simp only [shapeCast_self]
  have e : matmul (φ₁ := .bf16) (φ₂ := .bf16) dot_S512x2048_S2048x2048_S512x2048_1_0_0_1_n_n none v31 v33 (constant (F := Ideal) S512x2048 .f32 0x00000000#32) = MM v31 v33 :=
    matmul_zero_eq (φ₁ := .bf16) (φ₂ := .bf16) dot_S512x2048_S2048x2048_S512x2048_1_0_0_1_n_n rfl rfl rfl rfl rfl rfl none v31 v33
  rw [e, bcast_row]
  rfl

/-- One step of the running total. -/
theorem pay3_eq (v3 : Vec Ideal S512x2048 .bf16) (v5 : Vec Ideal S2048x256 .bf16) (v8 : Vec Ideal S1x256 .f32)
    (v16 : Vec Ideal S512x2048 .f32) (v17 : Vec Ideal S256x2048 .bf16) :
    k0_pay3 v3 v5 v8 v16 v17 = stepAcc v3 v5 v8 v16 v17 := by
  unfold k0_pay3
  simp only [shapeCast_self]
  have e1 : matmul (φ₁ := .bf16) (φ₂ := .bf16) dot_S512x2048_S2048x256_S512x256_1_0_0_1_n_n none v3 v5 (constant (F := Ideal) S512x256 .f32 0x00000000#32) = MM v3 v5 :=
    matmul_zero_eq (φ₁ := .bf16) (φ₂ := .bf16) dot_S512x2048_S2048x256_S512x256_1_0_0_1_n_n rfl rfl rfl rfl rfl rfl none v3 v5
  rw [e1, bcast_row]
  rw [show ∀ x : FVec Ideal S512x256 .bf16, matmul (φ₁ := .bf16) (φ₂ := .bf16) dot_S512x256_S256x2048_S512x2048_1_0_0_1_n_n none x v17 (constant (F := Ideal) S512x2048 .f32 0x00000000#32) = MM x v17 from
    fun x => matmul_zero_eq (φ₁ := .bf16) (φ₂ := .bf16) dot_S512x256_S256x2048_S512x2048_1_0_0_1_n_n rfl rfl rfl rfl rfl rfl none x v17]
  rfl

/-- The output block from the finished total. -/
theorem pay4_eq (v27 : Vec Ideal S512x2048 .f32) (v28 : Vec Ideal S1x2048 .f32) (v32 : Vec Ideal S512x2048 .f32) :
    k0_pay4 v27 v28 v32 = outBlk v27 v28 v32 := by
  unfold k0_pay4
  simp only [shapeCast_self]
  rw [bcast_row]
  rfl

end Cert.KernelIdeal.Payloads

end
-- ==== Proof.Blocks.lean ====
/-
  The operand blocks the body loads at a grid point, as entries of the eight operand arrays.

  The grid is 16 row blocks by 32 blocks of the hidden axis, walked with the hidden axis fastest: point `t` is row block
  `t / 32` and hidden block `t % 32`.  The two activations are read 512 rows at a time from row `512 * (t / 32)`; Wk's columns,
  bk's entries and Wv's rows 256 at a time from `(t % 32) * 256`; bv, Wr and br whole.
-/
import proofs.«170489_j8383776161803_1_alg».proof.Proof.Gen.KernelIdeal.Value
import proofs.«170489_j8383776161803_1_alg».proof.Proof.Pieces
import proofs.«170489_j8383776161803_1_alg».proof.Proof.Payloads
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Spec

variable (m : (ℓ : Loc nD τ sig) → Buf (Elt Ideal) ℓ)

/-- The eight operand arrays as the kernel finds them. -/
abbrev XK (c : Dev nD) : Mat 8192 2048 := V m c main_v18
abbrev XR (c : Dev nD) : Mat 8192 2048 := V m c main_v19
abbrev WK (c : Dev nD) : Mat 2048 8192 := V m c main_v20
abbrev BK (c : Dev nD) : Mat 1 8192 := V m c main_v23
abbrev WV (c : Dev nD) : Mat 8192 2048 := V m c main_v21
abbrev BV (c : Dev nD) : Mat 1 2048 := V m c main_v24
abbrev WR (c : Dev nD) : Mat 2048 2048 := V m c main_v22
abbrev BR (c : Dev nD) : Mat 1 2048 := V m c main_v25

/-- A one-row matrix as a one-axis array. -/
def rowArr {n : ℕ} (v : Mat 1 n) : Arr n := fun i => v (ix2 (0 : Fin 1) (i 0))

/-- Which block each window holds at grid point `t` = (row block t / 32, hidden block t % 32). -/
theorem idx_facts : ∀ t : Fin cfg0.N,
    win0_0.index t (0 : Fin 2) = t.val / 32 ∧ win0_0.index t (1 : Fin 2) = 0
    ∧ win0_1.index t (0 : Fin 2) = t.val / 32 ∧ win0_1.index t (1 : Fin 2) = 0
    ∧ win0_2.index t (0 : Fin 2) = 0 ∧ win0_2.index t (1 : Fin 2) = t.val % 32
    ∧ win0_3.index t (0 : Fin 2) = 0 ∧ win0_3.index t (1 : Fin 2) = t.val % 32
    ∧ win0_4.index t (0 : Fin 2) = t.val % 32 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val / 32 ∧ win0_8.index t (1 : Fin 2) = 0 :=
  (by decide +kernel : ∀ t : Fin grid0.N, _)

theorem blk0 (c : Dev nD) (t : Fin cfg0.N) (p : Fin 512) (k : Fin 2048) (hr : 512 * (t.val / 32) + p.val < 8192) :
    (iblk m c 0 t : Vec Ideal S512x2048 .bf16) (ix2 p k) = XK m c (ix2 ⟨512 * (t.val / 32) + p.val, hr⟩ k) := by
  obtain ⟨e00, e01, e10, e11, e20, e21, e30, e31, e40, e41, e50, e51, e60, e61, e70, e71, e80, e81⟩ := idx_facts t
  unfold iblk
  rw [View.read_apply]
  show V m c main_v18 _ = V m c main_v18 _
  refine congrArg (V m c main_v18) (funext fun a => Fin.ext ?_)
  match a with
  | ⟨0, _⟩ => show win0_0.index t (0 : Fin 2) * 512 + 1 * p.val = 512 * (t.val / 32) + p.val; rw [e00]; omega
  | ⟨1, _⟩ => show win0_0.index t (1 : Fin 2) * 2048 + 1 * k.val = k.val; rw [e01]; omega

theorem blk1 (c : Dev nD) (t : Fin cfg0.N) (p : Fin 512) (k : Fin 2048) (hr : 512 * (t.val / 32) + p.val < 8192) :
    (iblk m c 1 t : Vec Ideal S512x2048 .bf16) (ix2 p k) = XR m c (ix2 ⟨512 * (t.val / 32) + p.val, hr⟩ k) := by
  obtain ⟨e00, e01, e10, e11, e20, e21, e30, e31, e40, e41, e50, e51, e60, e61, e70, e71, e80, e81⟩ := idx_facts t
  unfold iblk
  rw [View.read_apply]
  show V m c main_v19 _ = V m c main_v19 _
  refine congrArg (V m c main_v19) (funext fun a => Fin.ext ?_)
  match a with
  | ⟨0, _⟩ => show win0_1.index t (0 : Fin 2) * 512 + 1 * p.val = 512 * (t.val / 32) + p.val; rw [e10]; omega
  | ⟨1, _⟩ => show win0_1.index t (1 : Fin 2) * 2048 + 1 * k.val = k.val; rw [e11]; omega

theorem blk2 (c : Dev nD) (t : Fin cfg0.N) (k : Fin 2048) (q : Fin 256) (hc : t.val % 32 * 256 + q.val < 8192) :
    (iblk m c 2 t : Vec Ideal S2048x256 .bf16) (ix2 k q) = WK m c (ix2 k ⟨t.val % 32 * 256 + q.val, hc⟩) := by
  obtain ⟨e00, e01, e10, e11, e20, e21, e30, e31, e40, e41, e50, e51, e60, e61, e70, e71, e80, e81⟩ := idx_facts t
  unfold iblk
  rw [View.read_apply]
  show V m c main_v20 _ = V m c main_v20 _
  refine congrArg (V m c main_v20) (funext fun a => Fin.ext ?_)
  match a with
  | ⟨0, _⟩ => show win0_2.index t (0 : Fin 2) * 2048 + 1 * k.val = k.val; rw [e20]; omega
  | ⟨1, _⟩ => show win0_2.index t (1 : Fin 2) * 256 + 1 * q.val = t.val % 32 * 256 + q.val; rw [e21]; omega

theorem blk3 (c : Dev nD) (t : Fin cfg0.N) (q : Fin 256) (hc : t.val % 32 * 256 + q.val < 8192) :
    (iblk m c 3 t : Vec Ideal S1x256 .f32) (ix2 (0 : Fin 1) q) = BK m c (ix2 (0 : Fin 1) ⟨t.val % 32 * 256 + q.val, hc⟩) := by
  obtain ⟨e00, e01, e10, e11, e20, e21, e30, e31, e40, e41, e50, e51, e60, e61, e70, e71, e80, e81⟩ := idx_facts t
  unfold iblk
  rw [View.read_apply]
  show V m c main_v23 _ = V m c main_v23 _
  refine congrArg (V m c main_v23) (funext fun a => Fin.ext ?_)
  match a with
  | ⟨0, _⟩ => show win0_3.index t (0 : Fin 2) * 1 + 1 * 0 = 0; rw [e30]
  | ⟨1, _⟩ => show win0_3.index t (1 : Fin 2) * 256 + 1 * q.val = t.val % 32 * 256 + q.val; rw [e31]; omega

theorem blk4 (c : Dev nD) (t : Fin cfg0.N) (q : Fin 256) (g : Fin 2048) (hc : t.val % 32 * 256 + q.val < 8192) :
    (iblk m c 4 t : Vec Ideal S256x2048 .bf16) (ix2 q g) = WV m c (ix2 ⟨t.val % 32 * 256 + q.val, hc⟩ g) := by
  obtain ⟨e00, e01, e10, e11, e20, e21, e30, e31, e40, e41, e50, e51, e60, e61, e70, e71, e80, e81⟩ := idx_facts t
  unfold iblk
  rw [View.read_apply]
  show V m c main_v21 _ = V m c main_v21 _
  refine congrArg (V m c main_v21) (funext fun a => Fin.ext ?_)
  match a with
  | ⟨0, _⟩ => show win0_4.index t (0 : Fin 2) * 256 + 1 * q.val = t.val % 32 * 256 + q.val; rw [e40]; omega
  | ⟨1, _⟩ => show win0_4.index t (1 : Fin 2) * 2048 + 1 * g.val = g.val; rw [e41]; omega

theorem blk5 (c : Dev nD) (t : Fin cfg0.N) (g : Fin 2048) :
    (iblk m c 5 t : Vec Ideal S1x2048 .f32) (ix2 (0 : Fin 1) g) = BV m c (ix2 (0 : Fin 1) g) := by
  obtain ⟨e00, e01, e10, e11, e20, e21, e30, e31, e40, e41, e50, e51, e60, e61, e70, e71, e80, e81⟩ := idx_facts t
  unfold iblk
  rw [View.read_apply]
  show V m c main_v24 _ = V m c main_v24 _
  refine congrArg (V m c main_v24) (funext fun a => Fin.ext ?_)
  match a with
  | ⟨0, _⟩ => show win0_5.index t (0 : Fin 2) * 1 + 1 * 0 = 0; rw [e50]
  | ⟨1, _⟩ => show win0_5.index t (1 : Fin 2) * 2048 + 1 * g.val = g.val; rw [e51]; omega

theorem blk6 (c : Dev nD) (t : Fin cfg0.N) (k : Fin 2048) (g : Fin 2048) :
    (iblk m c 6 t : Vec Ideal S2048x2048 .bf16) (ix2 k g) = WR m c (ix2 k g) := by
  obtain ⟨e00, e01, e10, e11, e20, e21, e30, e31, e40, e41, e50, e51, e60, e61, e70, e71, e80, e81⟩ := idx_facts t
  unfold iblk
  rw [View.read_apply]
  show V m c main_v22 _ = V m c main_v22 _
  refine congrArg (V m c main_v22) (funext fun a => Fin.ext ?_)
  match a with
  | ⟨0, _⟩ => show win0_6.index t (0 : Fin 2) * 2048 + 1 * k.val = k.val; rw [e60]; omega
  | ⟨1, _⟩ => show win0_6.index t (1 : Fin 2) * 2048 + 1 * g.val = g.val; rw [e61]; omega

theorem blk7 (c : Dev nD) (t : Fin cfg0.N) (g : Fin 2048) :
    (iblk m c 7 t : Vec Ideal S1x2048 .f32) (ix2 (0 : Fin 1) g) = BR m c (ix2 (0 : Fin 1) g) := by
  obtain ⟨e00, e01, e10, e11, e20, e21, e30, e31, e40, e41, e50, e51, e60, e61, e70, e71, e80, e81⟩ := idx_facts t
  unfold iblk
  rw [View.read_apply]
  show V m c main_v25 _ = V m c main_v25 _
  refine congrArg (V m c main_v25) (funext fun a => Fin.ext ?_)
  match a with
  | ⟨0, _⟩ => show win0_7.index t (0 : Fin 2) * 1 + 1 * 0 = 0; rw [e70]
  | ⟨1, _⟩ => show win0_7.index t (1 : Fin 2) * 2048 + 1 * g.val = g.val; rw [e71]; omega

end Cert.KernelIdeal.Blocks

end
-- ==== Proof.KernelValue.lean ====
/-
  What the kernel program's result array holds after its run: the layer's output (Spec.lean) over the eight operand arrays.

  Point `t` of the grid is row block `t / 32`, hidden block `t % 32`.  By induction on the point, after point `t` the first
  scratch array holds, at entry (p, g), the running sum of the shares of hidden blocks 0 … t % 32 in the sum over the hidden
  axis at row 512 * (t / 32) + p, and the second scratch array holds the gate's pre-activation at that row.  At a row
  block's last point (t % 32 = 31) the running sum is the whole sum, so the block written back is the layer's output at the
  block's rows; the 16 last points' blocks tile the result array.
-/
import proofs.«170489_j8383776161803_1_alg».proof.Proof.Gen.KernelIdeal.Value
import proofs.«170489_j8383776161803_1_alg».proof.Proof.Pieces
import proofs.«170489_j8383776161803_1_alg».proof.Proof.Payloads
import proofs.«170489_j8383776161803_1_alg».proof.Proof.Blocks
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.Spec Cert.LibMatmul Cert.LibBlockSum Cert.KernelIdeal.Blocks

variable (m : (ℓ : Loc nD τ sig) → Buf (Elt Ideal) ℓ) (ρ : Dev nD → PrngReg)

/-- The hidden activations on the whole arrays. -/
abbrev Hd (c : Dev nD) : Mat 8192 8192 := hidden (XK m c) (WK m c) (rowArr (BK m c))

/-- Hidden block `b`'s share of the sum over the hidden axis at output position (r, g). -/
abbrev share (c : Dev nD) (r : Fin 8192) (g : Fin 2048) : ℕ → EReal := blockTerm (Hd m c) (WV m c) 256 r g

/-- The layer's output on the whole arrays. -/
abbrev G (c : Dev nD) : Mat 8192 2048 :=
  out (XK m c) (XR m c) (WK m c) (rowArr (BK m c)) (WV m c) (rowArr (BV m c)) (WR m c) (rowArr (BR m c))

theorem rows_lt (t : Fin cfg0.N) (p : Fin 512) : 512 * (t.val / 32) + p.val < 8192 := by
  have hN : t.val < 512 := lt_of_lt_of_eq t.isLt (show cfg0.N = 512 from N_0)
  have := p.isLt
  omega

theorem cols_le (t : Fin cfg0.N) : (t.val % 32 + 1) * 256 ≤ 8192 := by
  have := Nat.mod_lt t.val (show 0 < 32 by norm_num)
  omega

/-! ## What a point leaves, case by case, in terms of the block functions -/

/-- A row block's first point: the total is one step from zeros, the second scratch the gate's pre-activation. -/
theorem first_point (c : Dev nD) (t : Fin cfg0.N) (h0 : t.val % 32 = 0) :
    (outsAt0 m c t.val t.isLt).2.1 = stepAcc (a := 512) (H := 2048) (b := 256) (G := 2048) (iblk m c 0 t) (iblk m c 2 t) (iblk m c 3 t) (fun _ => z0) (iblk m c 4 t)
    ∧ (outsAt0 m c t.val t.isLt).2.2 = gateBlk (a := 512) (H := 2048) (G := 2048) (iblk m c 1 t) (iblk m c 6 t) (iblk m c 7 t) := by
  have h1 : ¬t.val % 32 = 31 := by omega
  rw [outsAt0_A m c t h0 h1]
  dsimp only
  constructor
  · exact (Pieces.sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).trans
      ((Payloads.pay3_eq (iblk m c 0 t) (iblk m c 2 t) (iblk m c 3 t) (k0_pay1 (F := Ideal)) (iblk m c 4 t)).trans (by rw [Payloads.pay1_eq]))
  · exact (Pieces.sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)).trans (Payloads.pay2_eq (iblk m c 1 t) (iblk m c 6 t) (iblk m c 7 t))

/-- Every other point: the total is one step from what the point before left, the second scratch is kept. -/
theorem later_point (c : Dev nD) (t : Fin cfg0.N) (h0 : ¬t.val % 32 = 0) :
    (outsAt0 m c t.val t.isLt).2.1 = stepAcc (a := 512) (H := 2048) (b := 256) (G := 2048) (iblk m c 0 t) (iblk m c 2 t) (iblk m c 3 t) (outsAt0 m c (t.val - 1) (Nat.lt_of_le_of_lt (Nat.sub_le _ _) t.isLt)).2.1 (iblk m c 4 t)
    ∧ (outsAt0 m c t.val t.isLt).2.2 = (outsAt0 m c (t.val - 1) (Nat.lt_of_le_of_lt (Nat.sub_le _ _) t.isLt)).2.2 := by
  by_cases h1 : t.val % 32 = 31
  · rw [outsAt0_C m c t h0 h1]
    dsimp only
    exact ⟨(Pieces.sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2).trans
      (Payloads.pay3_eq (iblk m c 0 t) (iblk m c 2 t) (iblk m c 3 t) (outsAt0 m c (t.val - 1) (Nat.lt_of_le_of_lt (Nat.sub_le _ _) t.isLt)).2.1 (iblk m c 4 t)), rfl⟩
  · rw [outsAt0_B m c t h0 h1]
    dsimp only
    exact ⟨(Pieces.sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2).trans
      (Payloads.pay3_eq (iblk m c 0 t) (iblk m c 2 t) (iblk m c 3 t) (outsAt0 m c (t.val - 1) (Nat.lt_of_le_of_lt (Nat.sub_le _ _) t.isLt)).2.1 (iblk m c 4 t)), rfl⟩

/-- A row block's last point: the output block from the total just stored, the bias and the kept pre-activation. -/
theorem last_point (c : Dev nD) (t : Fin cfg0.N) (h0 : ¬t.val % 32 = 0) (h1 : t.val % 32 = 31) :
    (outsAt0 m c t.val t.isLt).1 = outBlk (a := 512) (G := 2048) (outsAt0 m c t.val t.isLt).2.1 (iblk m c 5 t) (outsAt0 m c t.val t.isLt).2.2 := by
  rw [(later_point m c t h0).1, (later_point m c t h0).2]
  rw [outsAt0_C m c t h0 h1]
  dsimp only
  exact (Pieces.out_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2).trans
    ((congrArg (fun z => k0_pay4 z (iblk m c 5 t) (outsAt0 m c (t.val - 1) (Nat.lt_of_le_of_lt (Nat.sub_le _ _) t.isLt)).2.2) (Payloads.pay3_eq (iblk m c 0 t) (iblk m c 2 t) (iblk m c 3 t) (outsAt0 m c (t.val - 1) (Nat.lt_of_le_of_lt (Nat.sub_le _ _) t.isLt)).2.1 (iblk m c 4 t))).trans
      (Payloads.pay4_eq _ (iblk m c 5 t) (outsAt0 m c (t.val - 1) (Nat.lt_of_le_of_lt (Nat.sub_le _ _) t.isLt)).2.2))

/-! ## The invariant: the total is the running sum of the shares, the second scratch the gate's pre-activation -/

/-- One step at point `t`, at entry (p, g): what the total held plus hidden block `t % 32`'s share at row `512 * (t / 32) + p`. -/
theorem step_at (c : Dev nD) (t : Fin cfg0.N) (acc : Mat 512 2048) (p : Fin 512) (g : Fin 2048)
    (hr : 512 * (t.val / 32) + p.val < 8192) :
    stepAcc (a := 512) (H := 2048) (b := 256) (G := 2048) (iblk m c 0 t) (iblk m c 2 t) (iblk m c 3 t) acc (iblk m c 4 t) (ix2 p g)
      = acc (ix2 p g) + share m c ⟨512 * (t.val / 32) + p.val, hr⟩ g (t.val % 32) := by
  show acc (ix2 p g) + MM (hiddenBlk (a := 512) (H := 2048) (b := 256) (iblk m c 0 t) (iblk m c 2 t) (iblk m c 3 t)) (iblk m c 4 t) (ix2 p g) = _
  congr 1
  exact step_eq (XK m c) (WK m c) (rowArr (BK m c)) (WV m c) (iblk m c 0 t) (iblk m c 2 t) (iblk m c 3 t) (iblk m c 4 t) (512 * (t.val / 32)) (t.val % 32)
    (fun p k hr => blk0 m c t p k hr) (fun k q hc => blk2 m c t k q hc) (fun q hc => blk3 m c t q hc)
    (fun q g hc => blk4 m c t q g hc) (cols_le t) p g hr

/-- After point `n`: at every entry of the row block, the total is the running sum of the first `n % 32 + 1` shares and the
    second scratch is the gate's pre-activation, both at row `r = 512 * (n / 32) + p` of the whole arrays. -/
def Inv (c : Dev nD) (n : ℕ) (hn : n < cfg0.N) : Prop :=
  ∀ (p : Fin 512) (g : Fin 2048) (r : Fin 8192), r.val = 512 * (n / 32) + p.val →
    ((outsAt0 m c n hn).2.1 : Mat 512 2048) (ix2 p g) = running (share m c r g) (n % 32 + 1)
    ∧ ((outsAt0 m c n hn).2.2 : Mat 512 2048) (ix2 p g) = gate (XR m c) (WR m c) (rowArr (BR m c)) (ix2 r g)

theorem inv_step (c : Dev nD) (t : Fin cfg0.N)
    (ih : ¬t.val % 32 = 0 → Inv m c (t.val - 1) (Nat.lt_of_le_of_lt (Nat.sub_le _ _) t.isLt)) : Inv m c t.val t.isLt := by
  intro p g r hrv
  have hr : 512 * (t.val / 32) + p.val < 8192 := rows_lt t p
  obtain rfl : r = ⟨512 * (t.val / 32) + p.val, hr⟩ := Fin.ext hrv
  by_cases h0 : t.val % 32 = 0
  · obtain ⟨ea, eg⟩ := first_point m c t h0
    constructor
    · rw [ea, step_at m c t (fun _ => z0) p g hr, h0]
      exact chain_zero _
    · rw [eg]
      exact gateBlk_eq (XR m c) (WR m c) (rowArr (BR m c)) (iblk m c 1 t) (iblk m c 6 t) (iblk m c 7 t) (512 * (t.val / 32))
        (fun p k hr => blk1 m c t p k hr) (fun k g => blk6 m c t k g) (fun g => blk7 m c t g) p g hr
  · obtain ⟨ea, eg⟩ := later_point m c t h0
    have e1 : (t.val - 1) / 32 = t.val / 32 := by omega
    have e2 : (t.val - 1) % 32 + 1 = t.val % 32 := by omega
    obtain ⟨ia, ig⟩ := ih h0 p g ⟨512 * (t.val / 32) + p.val, hr⟩ (by rw [e1])
    constructor
    · rw [ea, step_at m c t _ p g hr, ia, e2]
      rfl
    · rw [eg, ig]

theorem inv (c : Dev nD) : ∀ (n : ℕ) (hn : n < cfg0.N), Inv m c n hn
  | 0, hn => inv_step m c ⟨0, hn⟩ (fun h => absurd rfl h)
  | n + 1, hn => inv_step m c ⟨n + 1, hn⟩ (fun _ => inv c n _)

/-! ## The output block at a row block's last point, and the whole result array -/

/-- At a last point the output block is the layer's output at the row block's rows. -/
theorem out_at (c : Dev nD) (t : Fin cfg0.N) (h1 : t.val % 32 = 31) (p : Fin 512) (g : Fin 2048)
    (hr : 512 * (t.val / 32) + p.val < 8192) :
    ((outsAt0 m c t.val t.isLt).1 : Mat 512 2048) (ix2 p g) = G m c (ix2 ⟨512 * (t.val / 32) + p.val, hr⟩ g) := by
  have h0 : ¬t.val % 32 = 0 := by omega
  rw [last_point m c t h0 h1]
  obtain ⟨ia, ig⟩ := inv m c t.val t.isLt p g ⟨512 * (t.val / 32) + p.val, hr⟩ rfl
  show Ideal.logistic (((outsAt0 m c t.val t.isLt).2.2 : Mat 512 2048) (ix2 p g))
      * (((outsAt0 m c t.val t.isLt).2.1 : Mat 512 2048) (ix2 p g) + ((iblk m c 5 t) : Mat 1 2048) (ix2 (0 : Fin 1) g)) = _
  rw [ia, ig, h1, running_blockTerm (Hd m c) (WV m c) 32 256 (by norm_num), blk5 m c t g]
  rfl

theorem mem_blk (t : Fin cfg0.N) (i : S8192x2048.Idx) :
    i ∈ ((cfg0.win 8).blk t).view.set ↔ ∀ a : Fin 2, win0_8.index t a * S512x2048.size a ≤ (i a).val ∧ (i a).val < win0_8.index t a * S512x2048.size a + S512x2048.size a := by
  show i ∈ ((View.whole main_v26).slice (win0_8.rect t)).set ↔ _
  rw [View.set_slice_whole, Rect.mem_set_unit]
  exact Iff.rfl

/-- What a last point writes back is its row block of the layer's output. -/
theorem flushed_eq (c : Dev nD) (t : Fin cfg0.N) (hf : (cfg0.win 8).flush t = true) :
    (dats m 0 c).flushed 8 t = ((cfg0.win 8).blk t).view.read (Elt Ideal) (G m c) := by
  have h1 : t.val % 32 = 31 := (flush0_8 t).mp hf
  obtain ⟨e00, e01, e10, e11, e20, e21, e30, e31, e40, e41, e50, e51, e60, e61, e70, e71, e80, e81⟩ := idx_facts t
  rw [Cert.KernelIdeal.Value.flushed8]
  funext j
  obtain ⟨p, g, rfl⟩ : ∃ (p : Fin 512) (g : Fin 2048), j = ix2 p g := ⟨j 0, j 1, eq_ix2 j⟩
  rw [View.read_apply]
  have hr : 512 * (t.val / 32) + p.val < 8192 := rows_lt t p
  show ((outsAt0 m c t.val t.isLt).1 : Mat 512 2048) (ix2 p g) = G m c (((cfg0.win 8).blk t).view.emb (ix2 p g))
  rw [out_at m c t h1 p g hr]
  refine congrArg (G m c) (funext fun a => Fin.ext ?_)
  match a with
  | ⟨0, _⟩ => show 512 * (t.val / 32) + p.val = win0_8.index t (0 : Fin 2) * 512 + 1 * p.val; rw [e80]; omega
  | ⟨1, _⟩ => show g.val = win0_8.index t (1 : Fin 2) * 2048 + 1 * g.val; rw [e81]; omega

/-- The last point of row block `q`. -/
def lastOf (q : ℕ) (hq : q < 16) : Fin cfg0.N := ⟨32 * q + 31, by rw [show cfg0.N = 512 from N_0]; omega⟩

/-- The result array after the run is the layer's output: the 16 last points' blocks tile it. -/
theorem final (c : Dev nD) : (dats m 0 c).arrAt 8 cfg0.N = G m c :=
  (dats m 0 c).arrAt_eq_of_cover 8 (G m c) (flushed_eq m c) fun i => by
    have hi0 : (i 0).val < 8192 := (i 0).isLt
    have hi1 : (i 1).val < 2048 := (i 1).isLt
    refine ⟨lastOf ((i 0).val / 512) (by omega), (flush0_8 _).mpr (by show (32 * ((i 0).val / 512) + 31) % 32 = 31; omega), ?_⟩
    obtain ⟨e00, e01, e10, e11, e20, e21, e30, e31, e40, e41, e50, e51, e60, e61, e70, e71, e80, e81⟩ := idx_facts (lastOf ((i 0).val / 512) (by omega))
    have hv : (lastOf ((i 0).val / 512) (by omega)).val = 32 * ((i 0).val / 512) + 31 := rfl
    rw [mem_blk]
    intro a
    match a with
    | ⟨0, _⟩ =>
      show win0_8.index _ (0 : Fin 2) * 512 ≤ (i 0).val ∧ (i 0).val < win0_8.index _ (0 : Fin 2) * 512 + 512
      rw [e80, hv]; omega
    | ⟨1, _⟩ =>
      show win0_8.index _ (1 : Fin 2) * 2048 ≤ (i 1).val ∧ (i 1).val < win0_8.index _ (1 : Fin 2) * 2048 + 2048
      rw [e81]; omega

/-- The kernel program's run: the result array at the layer's output, the arguments unchanged. -/
theorem run : θ_run defs (onTc (τ := τ) (main (F := Ideal))) ⟨m, fun _ => 0, ρ⟩ fun r => ∀ c : Dev nD,
      r.2.mem ((c : Thread nD τ).loc main_v26) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelIdeal.RunValue

end
-- ==== Proof.Mix.lean ====
/-
  The time-mixed activation, as both programs compute it on whole arrays before any matrix product:

      mix(x, pos, μ) = x + (shift(x) - x) * (1 - μ),

  where shift(x) is x moved down one row (the last row wrapping to the top) and zeroed on the rows whose position id is 0,
  and (1 - μ) is broadcast down the rows.  Both programs spell it with the same operations in the same order, so it is
  kept as one whole-array term and never opened; its side conditions are passed as arguments so that either program's own
  facts can be given (a side condition is a proposition: any two proofs of it give the same term).
-/
import Idealize.ShloMosaic.PureOps.Ideal
import Idealize.ShloMosaic.Lib.Pipeline.Value

noncomputable section

namespace Cert.Mix

open Idealize.ShloMosaic

abbrev S_ : Shape := ⟨0, ![]⟩
abbrev ST : Shape := ⟨1, ![8192]⟩
abbrev SH : Shape := ⟨1, ![2048]⟩
abbrev STH : Shape := ⟨2, ![8192, 2048]⟩
abbrev S1H : Shape := ⟨2, ![1, 2048]⟩
abbrev SUH : Shape := ⟨2, ![8191, 2048]⟩
abbrev ST1 : Shape := ⟨2, ![8192, 1]⟩

/-- x + (shift(x) - x) * (1 - μ). -/
def mix (f1 : STH.Slices ![8191, 0] S1H) (f2 : STH.Slices ![0, 0] SUH) (f3 : Shape.Concatenates [S1H, SUH] STH 0)
    (f4 : S_.BroadcastsInDim ST (![] : Fin 0 → Fin ST.rank)) (f5 : ST.BroadcastsInDim ST1 (![0] : Fin 1 → Fin ST1.rank))
    (f6 : ST1.BroadcastsInDim STH (![0, 1] : Fin 2 → Fin STH.rank)) (f7 : S_.BroadcastsInDim STH (![] : Fin 0 → Fin STH.rank))
    (f8 : S_.BroadcastsInDim SH (![] : Fin 0 → Fin SH.rank)) (f9 : SH.BroadcastsInDim S1H (![1] : Fin 1 → Fin S1H.rank))
    (f10 : S1H.BroadcastsInDim STH (![0, 1] : Fin 2 → Fin STH.rank))
    (x : (⟨STH, .f32⟩ : BufTy).Contents (Elt Ideal)) (pos : (⟨ST, .i32⟩ : BufTy).Contents (Elt Ideal))
    (mu : (⟨SH, .f32⟩ : BufTy).Contents (Elt Ideal)) : (⟨STH, .f32⟩ : BufTy).Contents (Elt Ideal) :=
  addf x (mulf (subf (select (broadcastInDim STH ![0, 1] f6 (broadcastInDim ST1 ![0] f5 (cmpi .eq pos (broadcastInDim ST ![] f4 (constantI S_ 32 0#32))))) (broadcastInDim STH ![] f7 (id (constant (F := Ideal) S_ .f32 0x00000000#32))) (concatenate STH 0 [⟨S1H, (extractStridedSlice S1H ![8191, 0] x f1)⟩, ⟨SUH, (extractStridedSlice SUH ![0, 0] x f2)⟩] f3)) x) (broadcastInDim STH ![0, 1] f10 (broadcastInDim S1H ![1] f9 (subf (broadcastInDim SH ![] f8 (constant (F := Ideal) S_ .f32 0x3F800000#32)) mu))))

end Cert.Mix

end
-- ==== Proof.Arrays.lean ====
/-
  The eight operand arrays as the kernel finds them, in terms of the program's argument arrays.

  Before the kernel is launched the host computes the two time-mixed activations (Mix.lean) and changes float formats, which
  at the ideal values is the identity; the three bias vectors are reshaped to one-row matrices.
-/
import proofs.«170489_j8383776161803_1_alg».proof.Proof.Gen.KernelIdeal.Frame
import proofs.«170489_j8383776161803_1_alg».proof.Proof.Mix
import proofs.«170489_j8383776161803_1_alg».proof.Proof.Spec
import Idealize.ShloMosaic.Lib.StableHlo.Run
import Idealize.ShloMosaic.Lib.ValueLayout

noncomputable section

open Idealize.ShloMosaic Idealize.ShloMosaic.TcCoe Idealize.SL.Sem Idealize.ShloMosaic.ValueIdx

namespace Cert.KernelIdeal.Arrays

open Cert.KernelIdeal Cert.KernelIdeal.Gen Cert.Spec Cert.Mix

variable (m : (ℓ : Loc nD τ sig) → Buf (Elt Ideal) ℓ)

/-- The activation mixed with a per-channel coefficient array `mu`, over the kernel program's argument arrays. -/
abbrev mixOf (c : Dev nD) (mu : (⟨SH, .f32⟩ : BufTy).Contents (Elt Ideal)) : Mat 8192 2048 :=
  mix slices_S8192x2048_S1x2048_8191_0 slices_S8192x2048_S8191x2048_0_0 concatenates_S1x2048_S8191x2048_S8192x2048_d0
    bcast_S_S8192 bcast_S8192_S8192x1_0 bcast_S8192x1_S8192x2048_0_1 bcast_S_S8192x2048 bcast_S_S2048 bcast_S2048_S1x2048_1
    bcast_S1x2048_S8192x2048_0_1 (m ((c : Thread nD τ).loc main_arg0)) (m ((c : Thread nD τ).loc main_arg1)) mu

set_option maxHeartbeats 4000000 in
set_option maxRecDepth 8192 in
theorem xk_eq (c : Dev nD) : (V m c main_v18 : Mat 8192 2048) = mixOf m c (m ((c : Thread nD τ).loc main_arg2)) := by
  dsimp only [Gen.V]
  simp only [Gen.hostOps0, Gen.hostOps0_1, Gen.hostOps0_2, Gen.hostOps0_3, List.flatten_cons, List.flatten_nil, List.append_nil, List.cons_append, List.nil_append]
  after_results_simp
  rfl

set_option maxHeartbeats 4000000 in
set_option maxRecDepth 8192 in
theorem xr_eq (c : Dev nD) : (V m c main_v19 : Mat 8192 2048) = mixOf m c (m ((c : Thread nD τ).loc main_arg3)) := by
  dsimp only [Gen.V]
  simp only [Gen.hostOps0, Gen.hostOps0_1, Gen.hostOps0_2, Gen.hostOps0_3, List.flatten_cons, List.flatten_nil, List.append_nil, List.cons_append, List.nil_append]
  after_results_simp
  rfl

set_option maxHeartbeats 4000000 in
set_option maxRecDepth 8192 in
theorem wk_eq (c : Dev nD) : (V m c main_v20 : Mat 2048 8192) = m ((c : Thread nD τ).loc main_arg4) := by
  dsimp only [Gen.V]
  simp only [Gen.hostOps0, Gen.hostOps0_1, Gen.hostOps0_2, Gen.hostOps0_3, List.flatten_cons, List.flatten_nil, List.append_nil, List.cons_append, List.nil_append]
  after_results_simp
  rfl

set_option maxHeartbeats 4000000 in
set_option maxRecDepth 8192 in
theorem wv_eq (c : Dev nD) : (V m c main_v21 : Mat 8192 2048) = m ((c : Thread nD τ).loc main_arg6) := by
  dsimp only [Gen.V]
  simp only [Gen.hostOps0, Gen.hostOps0_1, Gen.hostOps0_2, Gen.hostOps0_3, List.flatten_cons, List.flatten_nil, List.append_nil, List.cons_append, List.nil_append]
  after_results_simp
  rfl

set_option maxHeartbeats 4000000 in
set_option maxRecDepth 8192 in
theorem wr_eq (c : Dev nD) : (V m c main_v22 : Mat 2048 2048) = m ((c : Thread nD τ).loc main_arg8) := by
  dsimp only [Gen.V]
  simp only [Gen.hostOps0, Gen.hostOps0_1, Gen.hostOps0_2, Gen.hostOps0_3, List.flatten_cons, List.flatten_nil, List.append_nil, List.cons_append, List.nil_append]
  after_results_simp
  rfl

set_option maxHeartbeats 4000000 in
set_option maxRecDepth 8192 in
theorem bk_eq (c : Dev nD) : (V m c main_v23 : Mat 1 8192) = shapeCast S1x8192 (m ((c : Thread nD τ).loc main_arg5)) shapeCasts_S8192_S1x8192 := by
  dsimp only [Gen.V]
  simp only [Gen.hostOps0, Gen.hostOps0_1, Gen.hostOps0_2, Gen.hostOps0_3, List.flatten_cons, List.flatten_nil, List.append_nil, List.cons_append, List.nil_append]
  after_results_simp
  rfl

set_option maxHeartbeats 4000000 in
set_option maxRecDepth 8192 in
theorem bv_eq (c : Dev nD) : (V m c main_v24 : Mat 1 2048) = shapeCast S1x2048 (m ((c : Thread nD τ).loc main_arg7)) shapeCasts_S2048_S1x2048 := by
  dsimp only [Gen.V]
  simp only [Gen.hostOps0, Gen.hostOps0_1, Gen.hostOps0_2, Gen.hostOps0_3, List.flatten_cons, List.flatten_nil, List.append_nil, List.cons_append, List.nil_append]
  after_results_simp
  rfl

set_option maxHeartbeats 4000000 in
set_option maxRecDepth 8192 in
theorem br_eq (c : Dev nD) : (V m c main_v25 : Mat 1 2048) = shapeCast S1x2048 (m ((c : Thread nD τ).loc main_arg9)) shapeCasts_S2048_S1x2048 := by
  dsimp only [Gen.V]
  simp only [Gen.hostOps0, Gen.hostOps0_1, Gen.hostOps0_2, Gen.hostOps0_3, List.flatten_cons, List.flatten_nil, List.append_nil, List.cons_append, List.nil_append]
  after_results_simp
  rfl

/-- A bias vector reshaped to one row, read back as a one-axis array, is the vector. -/
theorem row_of_cast {n : ℕ} (v : (⟨1, ![n]⟩ : Shape).Idx → EReal) (h : (⟨1, ![n]⟩ : Shape).ShapeCasts ⟨2, ![1, n]⟩) :
    (fun i : (⟨1, ![n]⟩ : Shape).Idx => shapeCast ⟨2, ![1, n]⟩ v h (ix2 (0 : Fin 1) (i 0))) = v := by
  funext i
  exact (shapeCast_a_1a_apply v h (0 : Fin 1) (i 0)).trans (congrArg v (eq_ix1 i).symm)

end Cert.KernelIdeal.Arrays

end
-- ==== Proof.LibBcastInDim.lean ====
/-
  The host's `broadcast_in_dim` in the four arrangements a row-wise reference uses, read as functions of the
  index: a scalar to any shape; a length-b array to one row and then down a rows; a length-a array to a column;
  a column across b columns.
-/
import Idealize.ShloMosaic.Lib.Pipeline.Value
import Idealize.ShloMosaic.Lib.ValueLayout

namespace Cert.LibBcastInDim

open Idealize.ShloMosaic Idealize.ShloMosaic.ValueIdx

variable {α : Type}

/-- A scalar broadcast to any shape holds the scalar everywhere. -/
theorem bid_scalar {t : Shape} (x : (⟨0, ![]⟩ : Shape).Idx → α)
    (h : (⟨0, ![]⟩ : Shape).BroadcastsInDim t (![] : Fin 0 → Fin t.rank)) :
    broadcastInDim t ![] h x = fun _ => x ix0 := by
  funext j
  exact broadcastInDim_apply _ h x j ix0 (fun a => a.elim0)

/-- A length-b array placed as one row and broadcast down a rows holds, at (p, c), its entry c. -/
theorem bid_row {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) :
    broadcastInDim ⟨2, ![a, b]⟩ ![0, 1] h2 (broadcastInDim ⟨2, ![1, b]⟩ ![1] h1 v) = fun i => v (ix1 (i 1)) := by
  funext i
  have hlt : (i 1).val < b := (i 1).isLt
  refine (broadcastInDim_apply _ h2 _ i (ix2 (0 : Fin 1) (i 1)) fun ax => ?_).trans
    (broadcastInDim_apply _ h1 v (ix2 (0 : Fin 1) (i 1)) (ix1 (i 1)) fun ax => ?_)
  · match ax with
    | ⟨0, _⟩ => rfl
    | ⟨1, _⟩ =>
      show (i 1).val = if b = 1 then 0 else (i 1).val
      split
      · omega
      · rfl
  · match ax with
    | ⟨0, _⟩ =>
      show (i 1).val = if b = 1 then 0 else (i 1).val
      split
      · omega
      · rfl

/-- A length-a array placed as a column holds, at (r, u), its entry r. -/
theorem bid_col {a : ℕ} (v : (⟨1, ![a]⟩ : Shape).Idx → α)
    (h : (⟨1, ![a]⟩ : Shape).BroadcastsInDim ⟨2, ![a, 1]⟩ (![0] : Fin 1 → Fin 2)) :
    broadcastInDim ⟨2, ![a, 1]⟩ ![0] h v = fun i => v (ix1 (i 0)) := by
  funext i
  have hlt : (i 0).val < a := (i 0).isLt
  refine broadcastInDim_apply _ h v i (ix1 (i 0)) fun ax => ?_
  match ax with
  | ⟨0, _⟩ =>
    show (i 0).val = if a = 1 then 0 else (i 0).val
    split
    · omega
    · rfl

/-- A column broadcast across b columns holds, at (r, c), the column's entry r. -/
theorem bid_across {a b : ℕ} (v : (⟨2, ![a, 1]⟩ : Shape).Idx → α)
    (h : (⟨2, ![a, 1]⟩ : Shape).BroadcastsInDim ⟨2, ![a, b]⟩ (![0, 1] : Fin 2 → Fin 2)) :
    broadcastInDim ⟨2, ![a, b]⟩ ![0, 1] h v = fun i => v (ix2 (i 0) (0 : Fin 1)) := by
  funext i
  have hlt : (i 0).val < a := (i 0).isLt
  refine broadcastInDim_apply _ h v i (ix2 (i 0) (0 : Fin 1)) fun ax => ?_
  match ax with
  | ⟨0, _⟩ =>
    show (i 0).val = if a = 1 then 0 else (i 0).val
    split
    · omega
    · rfl
  | ⟨1, _⟩ => rfl

end Cert.LibBcastInDim
-- ==== Proof.HostSide.lean ====
/-
  The reference's arithmetic is the layer of Spec.lean.

  On whole arrays at the ideal values: the host's three matrix products are plain sums over the contracted axis, a
  bias broadcast down the rows reads the bias at the column, the scalar constants read their words, and the host's
  expansion 1 / (1 + exp(-z)) of the logistic function is the ideal logistic function itself.  Stated for any extents and for
  any dimension records of the plain kind (contract the left operand's axis 1 with the right operand's axis 0).
-/
import proofs.«170489_j8383776161803_1_alg».proof.Proof.Spec
import proofs.«170489_j8383776161803_1_alg».proof.Proof.LibBcastInDim
import Idealize.ShloMosaic.Lib.IdealHost

noncomputable section

namespace Cert.HostSide

open Idealize.ShloMosaic Idealize.ShloMosaic.ValueIdx Cert.Spec Cert.LibMatmul Cert.LibBcastInDim

/-- The host's chain  logistic(XR · Wr + br) * (max(XK · Wk + bk, 0)² · Wv + bv), as the reference spells it, is `Spec.out`. -/
theorem host_out_eq {T H I : ℕ}
    (d1 : DotDims ⟨2, ![T, H]⟩ ⟨2, ![H, I]⟩ ⟨2, ![T, I]⟩)
    (d1lb : d1.lhsBatch = []) (d1ln : d1.lhsNonContracting = [0]) (d1lc : d1.lhsContracting = [1])
    (d1rb : d1.rhsBatch = []) (d1rn : d1.rhsNonContracting = [1]) (d1rc : d1.rhsContracting = [0])
    (d2 : DotDims ⟨2, ![T, I]⟩ ⟨2, ![I, H]⟩ ⟨2, ![T, H]⟩)
    (d2lb : d2.lhsBatch = []) (d2ln : d2.lhsNonContracting = [0]) (d2lc : d2.lhsContracting = [1])
    (d2rb : d2.rhsBatch = []) (d2rn : d2.rhsNonContracting = [1]) (d2rc : d2.rhsContracting = [0])
    (d3 : DotDims ⟨2, ![T, H]⟩ ⟨2, ![H, H]⟩ ⟨2, ![T, H]⟩)
    (d3lb : d3.lhsBatch = []) (d3ln : d3.lhsNonContracting = [0]) (d3lc : d3.lhsContracting = [1])
    (d3rb : d3.rhsBatch = []) (d3rn : d3.rhsNonContracting = [1]) (d3rc : d3.rhsContracting = [0])
    (bS : (⟨0, ![]⟩ : Shape).BroadcastsInDim ⟨2, ![T, H]⟩ (![] : Fin 0 → Fin 2))
    (bSI : (⟨0, ![]⟩ : Shape).BroadcastsInDim ⟨2, ![T, I]⟩ (![] : Fin 0 → Fin 2))
    (bH1 : (⟨1, ![H]⟩ : Shape).BroadcastsInDim ⟨2, ![1, H]⟩ (![1] : Fin 1 → Fin 2))
    (bH2 : (⟨2, ![1, H]⟩ : Shape).BroadcastsInDim ⟨2, ![T, H]⟩ (![0, 1] : Fin 2 → Fin 2))
    (bI1 : (⟨1, ![I]⟩ : Shape).BroadcastsInDim ⟨2, ![1, I]⟩ (![1] : Fin 1 → Fin 2))
    (bI2 : (⟨2, ![1, I]⟩ : Shape).BroadcastsInDim ⟨2, ![T, I]⟩ (![0, 1] : Fin 2 → Fin 2))
    (XK XR : FVec Ideal ⟨2, ![T, H]⟩ .f32) (Wk : FVec Ideal ⟨2, ![H, I]⟩ .f32) (bk : FVec Ideal ⟨1, ![I]⟩ .f32)
    (Wv : FVec Ideal ⟨2, ![I, H]⟩ .f32) (bv : FVec Ideal ⟨1, ![H]⟩ .f32)
    (Wr : FVec Ideal ⟨2, ![H, H]⟩ .f32) (br : FVec Ideal ⟨1, ![H]⟩ .f32) :
    mulf (Host.divf (broadcastInDim ⟨2, ![T, H]⟩ ![] bS (constant (F := Ideal) ⟨0, ![]⟩ .f32 0x3F800000#32))
        (addf (broadcastInDim ⟨2, ![T, H]⟩ ![] bS (constant (F := Ideal) ⟨0, ![]⟩ .f32 0x3F800000#32))
          (Host.exp (Host.negf (addf (Host.dotGeneral d3 none XR Wr)
            (broadcastInDim ⟨2, ![T, H]⟩ ![0, 1] bH2 (broadcastInDim ⟨2, ![1, H]⟩ ![1] bH1 br)))))))
      (addf (Host.dotGeneral d2 none
          (mulf
            (maximumf (addf (Host.dotGeneral d1 none XK Wk)
                (broadcastInDim ⟨2, ![T, I]⟩ ![0, 1] bI2 (broadcastInDim ⟨2, ![1, I]⟩ ![1] bI1 bk)))
              (broadcastInDim ⟨2, ![T, I]⟩ ![] bSI (constant (F := Ideal) ⟨0, ![]⟩ .f32 0x00000000#32)))
            (maximumf (addf (Host.dotGeneral d1 none XK Wk)
                (broadcastInDim ⟨2, ![T, I]⟩ ![0, 1] bI2 (broadcastInDim ⟨2, ![1, I]⟩ ![1] bI1 bk)))
              (broadcastInDim ⟨2, ![T, I]⟩ ![] bSI (constant (F := Ideal) ⟨0, ![]⟩ .f32 0x00000000#32))))
          Wv)
        (broadcastInDim ⟨2, ![T, H]⟩ ![0, 1] bH2 (broadcastInDim ⟨2, ![1, H]⟩ ![1] bH1 bv)))
    = out XK XR Wk bk Wv bv Wr br := by
  have e1 : Host.dotGeneral d1 none XK Wk = MM XK Wk := dotGeneral_eq d1 d1lb d1ln d1lc d1rb d1rn d1rc none .single XK Wk
  have e3 : Host.dotGeneral d3 none XR Wr = MM XR Wr := dotGeneral_eq d3 d3lb d3ln d3lc d3rb d3rn d3rc none .single XR Wr
  rw [e1, e3, bid_row br, bid_row bk, bid_row bv, bid_scalar _ bS, bid_scalar _ bSI]
  rw [show ∀ x : FVec Ideal ⟨2, ![T, I]⟩ .f32, Host.dotGeneral d2 none x Wv = MM x Wv from
    fun x => dotGeneral_eq d2 d2lb d2ln d2lc d2rb d2rn d2rc none .single x Wv]
  funext j
  show Ideal.div (Ideal.ofBits .f32 0x3F800000#32)
      (Ideal.ofBits .f32 0x3F800000#32 + Ideal.exp (-(MM XR Wr j + br (ix1 (j 1)))))
      * (MM (fun i => max (MM XK Wk i + bk (ix1 (i 1))) z0 * max (MM XK Wk i + bk (ix1 (i 1))) z0) Wv j + bv (ix1 (j 1))) = _
  rw [Ideal.ofBits_one_f32]
  rfl

end Cert.HostSide

end
-- ==== Proof.RefSide.lean ====
/-
  The reference's result is the layer of Spec.lean applied to the two time-mixed activations and the six parameter arrays.

  The reference's run ends with its result at the composed term of its operations; that term is the host's chain of
  HostSide.lean over the two time-mixed activations (Mix.lean), each kept as one whole-array term.
-/
import proofs.«170489_j8383776161803_1_alg».proof.Proof.Gen.ReferenceIdeal.Run
import proofs.«170489_j8383776161803_1_alg».proof.Proof.HostSide
import proofs.«170489_j8383776161803_1_alg».proof.Proof.Mix

noncomputable section

namespace Cert.ReferenceIdeal.RefValue

open Cert.ReferenceIdeal Cert.ReferenceIdeal.Gen Cert.ReferenceIdeal.Value Idealize.ShloMosaic Idealize.ShloMosaic.TcCoe Idealize.SL.Sem
open Cert.Spec Cert.Mix

variable (m : (ℓ : Loc nD τ sig) → Buf (Elt Ideal) ℓ)

/-- The activation mixed with a per-channel coefficient array `mu`, over the reference's argument arrays. -/
abbrev mixOf (c : Dev nD) (mu : (⟨SH, .f32⟩ : BufTy).Contents (Elt Ideal)) : Mat 8192 2048 :=
  mix slices_S8192x2048_S1x2048_8191_0 slices_S8192x2048_S8191x2048_0_0 concatenates_S1x2048_S8191x2048_S8192x2048_d0
    bcast_S_S8192 bcast_S8192_S8192x1_0 bcast_S8192x1_S8192x2048_0_1 bcast_S_S8192x2048 bcast_S_S2048 bcast_S2048_S1x2048_1
    bcast_S1x2048_S8192x2048_0_1 (m ((c.tc : Thread nD τ).loc main_arg0)) (m ((c.tc : Thread nD τ).loc main_arg1)) mu

/-- The layer over the reference's argument arrays. -/
abbrev layer (c : Dev nD) : Mat 8192 2048 :=
  out (mixOf m c (m ((c.tc : Thread nD τ).loc main_arg2))) (mixOf m c (m ((c.tc : Thread nD τ).loc main_arg3)))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))

/-- The reference's result term is the layer. -/
theorem res_eq (c : Dev nD) : res_main_v38 (F := Ideal) m c = layer m c := by
  unfold res_main_v38
  exact Cert.HostSide.host_out_eq (T := 8192) (H := 2048) (I := 8192)
    dot_S8192x2048_S2048x8192_S8192x8192_1_0_0_1_n_n rfl rfl rfl rfl rfl rfl
    dot_S8192x8192_S8192x2048_S8192x2048_1_0_0_1_n_n rfl rfl rfl rfl rfl rfl
    dot_S8192x2048_S2048x2048_S8192x2048_1_0_0_1_n_n rfl rfl rfl rfl rfl rfl
    bcast_S_S8192x2048 bcast_S_S8192x8192 bcast_S2048_S1x2048_1 bcast_S1x2048_S8192x2048_0_1 bcast_S8192_S1x8192_1
    bcast_S1x8192_S8192x8192_0_1
    (mixOf m c (m ((c.tc : Thread nD τ).loc main_arg2))) (mixOf m c (m ((c.tc : Thread nD τ).loc main_arg3)))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))

end Cert.ReferenceIdeal.RefValue

end
-- ==== Proof.lean ====
/-
  A gated feed-forward layer on time-mixed activations: the tiled kernel against the plain reference.

  Both programs first form, on whole arrays, the two time-mixed activations  xk = x + (shift(x) - x) * (1 - μk)  and
  xr = x + (shift(x) - x) * (1 - μr)  (Mix.lean), and then compute

      out(t, g) = logistic( (xr · Wr)(t, g) + br(g) ) * ( ∑ i, max( (xk · Wk)(t, i) + bk(i), 0 )² * Wv(i, g) + bv(g) ).

  The reference does it with three whole matrix products (HostSide.lean, RefSide.lean).  The kernel walks a grid of 16 row
  blocks of 512 rows by 32 blocks of 256 hidden columns: at a row block's first point it zeroes a running total and keeps the
  gate's pre-activation; at every point it adds the hidden block's product to the total; at the last point it writes the
  output block.  The total after the last point is the sum over the hidden axis taken block by block (KernelValue.lean), and
  over the extended reals regrouping a finite sum changes nothing (Spec.lean): no finiteness of the inputs is used.  The
  changes of float format the kernel program makes before its matrix products are the identity at the ideal values
  (Arrays.lean), so both results are one function of the argument arrays.
-/
import proofs.«170489_j8383776161803_1_alg».proof.Defs
import proofs.«170489_j8383776161803_1_alg».proof.Proof.Gen.Kernel
import proofs.«170489_j8383776161803_1_alg».proof.Proof.Gen.Kernel.Frame
import proofs.«170489_j8383776161803_1_alg».proof.Proof.Gen.KernelIdeal
import proofs.«170489_j8383776161803_1_alg».proof.Proof.Gen.KernelIdeal.Frame
import proofs.«170489_j8383776161803_1_alg».proof.Proof.Gen.ReferenceIdeal
import proofs.«170489_j8383776161803_1_alg».proof.Proof.Gen.Pre_finite_inputs
import proofs.«170489_j8383776161803_1_alg».proof.Proof.KernelValue
import proofs.«170489_j8383776161803_1_alg».proof.Proof.Arrays
import proofs.«170489_j8383776161803_1_alg».proof.Proof.RefSide
import Idealize.ShloMosaic.Adequacy
import Idealize.ShloMosaic.Init

noncomputable section

namespace Cert.Proof

open Idealize.ShloMosaic Idealize.ShloMosaic.TcCoe Idealize.SL.Sem Cert.Spec

/-- The kernel program's result, as the layer over its argument arrays: the operand arrays the kernel finds are the two
    time-mixed activations and the parameter arrays themselves. -/
theorem kernel_layer (m : (ℓ : Loc Cert.KernelIdeal.nD Cert.KernelIdeal.τ Cert.KernelIdeal.sig) → Buf (Elt Ideal) ℓ)
    (c : Dev Cert.KernelIdeal.nD) :
    Cert.KernelIdeal.RunValue.G m c
      = out (Cert.KernelIdeal.Arrays.mixOf m c (m ((c.tc : Thread Cert.KernelIdeal.nD Cert.KernelIdeal.τ).loc Cert.KernelIdeal.main_arg2)))
          (Cert.KernelIdeal.Arrays.mixOf m c (m ((c.tc : Thread Cert.KernelIdeal.nD Cert.KernelIdeal.τ).loc Cert.KernelIdeal.main_arg3)))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9)) := by
  show out (Cert.KernelIdeal.Gen.V m c Cert.KernelIdeal.main_v18) (Cert.KernelIdeal.Gen.V m c Cert.KernelIdeal.main_v19)
      (Cert.KernelIdeal.Gen.V m c Cert.KernelIdeal.main_v20)
      (fun i => (Cert.KernelIdeal.Gen.V m c Cert.KernelIdeal.main_v23 : Mat 1 8192) (ValueIdx.ix2 (0 : Fin 1) (i 0)))
      (Cert.KernelIdeal.Gen.V m c Cert.KernelIdeal.main_v21)
      (fun i => (Cert.KernelIdeal.Gen.V m c Cert.KernelIdeal.main_v24 : Mat 1 2048) (ValueIdx.ix2 (0 : Fin 1) (i 0)))
      (Cert.KernelIdeal.Gen.V m c Cert.KernelIdeal.main_v22)
      (fun i => (Cert.KernelIdeal.Gen.V m c Cert.KernelIdeal.main_v25 : Mat 1 2048) (ValueIdx.ix2 (0 : Fin 1) (i 0))) = _
  rw [Cert.KernelIdeal.Arrays.xk_eq, Cert.KernelIdeal.Arrays.xr_eq, Cert.KernelIdeal.Arrays.wk_eq, Cert.KernelIdeal.Arrays.wv_eq,
    Cert.KernelIdeal.Arrays.wr_eq, Cert.KernelIdeal.Arrays.bk_eq, Cert.KernelIdeal.Arrays.bv_eq, Cert.KernelIdeal.Arrays.br_eq,
    Cert.KernelIdeal.Arrays.row_of_cast, Cert.KernelIdeal.Arrays.row_of_cast, Cert.KernelIdeal.Arrays.row_of_cast]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the layer of their argument arrays, which agree. -/
theorem algebraic : Cert.algebraic_KernelIdeal_ReferenceIdeal := by
  intro m ρ m' ρ' _ hagree
  refine ⟨fun c => Cert.KernelIdeal.RunValue.G m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq]
  refine Eq.trans ?_ (kernel_layer m c).symm
  obtain ⟨a0, a1, a2, a3, a4, a5, a6, a7, a8, a9⟩ := hagree c
  unfold Cert.ReferenceIdeal.RefValue.layer Cert.ReferenceIdeal.RefValue.mixOf
  rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
